-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S_ : Shape := ⟨0, ![]⟩
abbrev S64x512 : Shape := ⟨2, ![64, 512]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  reducesTo_S64x1024x512_S64x512_d1 : S64x1024x512.ReducesTo [1] S64x512
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v14 : IVec S_ 1) (main_v15 : FVec F S64x1024x512 .f32) (main_cst_5 : FVec F S_ .f32) : IVec S_ 1 :=
  let main_v16 : FVec F S64x512 .f32 := (fun x v => Host.reduceAdd x v reducesTo_S64x1024x512_S64x512_d1 h_S_) main_v15 main_cst_5
  let main_cst_6 : FVec F S_ .f32 := constant S_ .f32 0x00000000#32
  let main_v17 : FVec F S64x512 .f32 := broadcastInDim S64x512 ![] bcast_S_S64x512 main_cst_6
  let main_v18 : IVec S64x512 1 := cmpf .une main_v16 main_v17
  let main_c_7 : IVec S_ 1 := constantI S_ 1 1#1
  let main_v19 : IVec S_ 1 := (fun x v => Host.reduce IntOp.andi x v reducesTo_S64x512_S_d0_1 h_S_) main_v18 main_c_7
  let main_v20 : IVec S_ 1 := andi main_v14 main_v19
  main_v20

def fn {F : FTy → Type} [FloatOps F] (main_arg0 : FVec F S64x1024x512 .f32) (main_arg1 : FVec F S64x1024x512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S64x1024x512 .f32 := Host.absf main_arg1
  let main_cst_0 : FVec F S_ .f32 := constant S_ .f32 0x7F800000#32
  let main_v5 : FVec F S64x1024x512 .f32 := broadcastInDim S64x1024x512 ![] bcast_S_S64x1024x512 main_cst_0
  let main_v6 : IVec S64x1024x512 1 := cmpf .olt main_v4 main_v5
  let main_c_1 : IVec S_ 1 := constantI S_ 1 1#1
  let main_v7 : IVec S_ 1 := (fun x v => Host.reduce IntOp.andi x v reducesTo_S64x1024x512_S_d0_1_2 h_S_) main_v6 main_c_1
  let main_v8 : IVec S_ 1 := andi main_v3 main_v7
  let main_v9 : FVec F S64x1024x512 .f32 := mulf main_arg0 main_arg0
  let main_cst_2 : FVec F S_ .f32 := constant S_ .f32 0x00000000#32
  let main_v10 : FVec F S64x512 .f32 := (fun x v => Host.reduceAdd x v reducesTo_S64x1024x512_S64x512_d1 h_S_) main_v9 main_cst_2
  let main_cst_3 : FVec F S_ .f32 := constant S_ .f32 0x00000000#32
  let main_v11 : FVec F S64x512 .f32 := broadcastInDim S64x512 ![] bcast_S_S64x512 main_cst_3
  let main_v12 : IVec S64x512 1 := cmpf .une main_v10 main_v11
  let main_c_4 : IVec S_ 1 := constantI S_ 1 1#1
  let main_v13 : IVec S_ 1 := (fun x v => Host.reduce IntOp.andi x v reducesTo_S64x512_S_d0_1 h_S_) main_v12 main_c_4
  let main_v14 : IVec S_ 1 := andi main_v8 main_v13
  let main_v15 : FVec F S64x1024x512 .f32 := mulf main_arg1 main_arg1
  let main_cst_5 : FVec F S_ .f32 := constant S_ .f32 0x00000000#32
  fn_part1 (F := F) main_v14 main_v15 main_cst_5
-- ==== Kernel.lean ====
abbrev S64x1024x512 : Shape := ⟨3, ![64, 1024, 512]⟩
abbrev S1x1024x512 : Shape := ⟨3, ![1, 1024, 512]⟩
abbrev S1024x512 : Shape := ⟨2, ![1024, 512]⟩
abbrev S512 : Shape := ⟨1, ![512]⟩
abbrev S1x512 : Shape := ⟨2, ![1, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S64x1024x512, .f32⟩
  | .hbm, ⟨1, _⟩ => ⟨S64x1024x512, .f32⟩
  | .hbm, ⟨2, _⟩ => ⟨S64x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S512 : S1024x512.Reduces [0] S512
  shapeCasts_S512_S1x512 : S512.ShapeCasts S1x512
  broadcasts_S1x512_S1024x512 : S1x512.Broadcasts S1024x512
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  shapeCasts_S1024x512_S1x1024x512 : S1024x512.ShapeCasts S1x1024x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x1024x512.size a
  hwx0_1 : ∀ i : grid0.Coords, EltTy.bits .f32 = 32 ∨ (Rect.block (s := S64x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S_ : Shape := ⟨0, ![]⟩
abbrev S64x512 : Shape := ⟨2, ![64, 512]⟩
abbrev S64x1x512 : Shape := ⟨3, ![64, 1, 512]⟩
abbrev S64x1024x1024 : Shape := ⟨3, ![64, 1024, 1024]⟩
abbrev S64x1024 : Shape := ⟨2, ![64, 1024]⟩
abbrev S64x1024x1 : Shape := ⟨3, ![64, 1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64x1024x512, .f32⟩
  | .hbm, ⟨2, _⟩ => ⟨S64x1024x512, .f32⟩
  | .hbm, ⟨3, _⟩ => ⟨S_, .f32⟩
  | .hbm, ⟨4, _⟩ => ⟨S64x512, .f32⟩
  | .hbm, ⟨5, _⟩ => ⟨S64x1x512, .f32⟩
  | .hbm, ⟨6, _⟩ => ⟨S64x1x512, .f32⟩
  | .hbm, ⟨7, _⟩ => ⟨S64x1024x512, .f32⟩
  | .hbm, ⟨8, _⟩ => ⟨S64x1024x512, .f32⟩
  | .hbm, ⟨9, _⟩ => ⟨S64x1024x512, .f32⟩
  | .hbm, ⟨10, _⟩ => ⟨S_, .f32⟩
  | .hbm, ⟨11, _⟩ => ⟨S64x512, .f32⟩
  | .hbm, ⟨12, _⟩ => ⟨S64x1x512, .f32⟩
  | .hbm, ⟨13, _⟩ => ⟨S64x1x512, .f32⟩
  | .hbm, ⟨14, _⟩ => ⟨S64x1024x512, .f32⟩
  | .hbm, ⟨15, _⟩ => ⟨S64x1024x512, .f32⟩
  | .hbm, ⟨16, _⟩ => ⟨S64x1024x1024, .f32⟩
  | .hbm, ⟨17, _⟩ => ⟨S_, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024x1, .f32⟩
  | .hbm, ⟨23, _⟩ => ⟨S64x1024x1024, .f32⟩
  | .hbm, ⟨24, _⟩ => ⟨S64x1024x1024, .f32⟩
  | .hbm, ⟨25, _⟩ => ⟨S64x1024x1024, .f32⟩
  | .hbm, ⟨26, _⟩ => ⟨S_, .f32⟩
  | .hbm, ⟨27, _⟩ => ⟨S64x1024, .f32⟩
  | .hbm, ⟨28, _⟩ => ⟨S64x1024x1, .f32⟩
  | .hbm, ⟨29, _⟩ => ⟨S64x1024x1024, .f32⟩
  | .hbm, ⟨30, _⟩ => ⟨S64x1024x1024, .f32⟩
  | .hbm, ⟨31, _⟩ => ⟨S_, .f32⟩
  | .hbm, ⟨32, _⟩ => ⟨S64x1024x1024, .f32⟩
  | .hbm, ⟨33, _⟩ => ⟨S64x1024x1024, .f32⟩
  | .hbm, ⟨34, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S64x1024x512_S64x512_d1 : S64x1024x512.ReducesTo [1] S64x512
  h_S_ : 0 < S_.numel
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  reducesTo_S64x1024x1024_S64x1024_d2 : S64x1024x1024.ReducesTo [2] S64x1024
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  bcast_S_S64x1024x1024 : S_.BroadcastsInDim S64x1024x1024 (![] : Fin 0 → Fin S64x1024x1024.rank)
  dot_S64x1024x512_S64x1024x512_S64x1024x1024_2_2_1_1_0_0_wf : DotDims.WF S64x1024x512 S64x1024x512 S64x1024x1024 [2] [2] [1] [1] [0] [0]
  dot_S64x1024x1024_S64x1024x512_S64x1024x512_2_1_1_2_0_0_wf : DotDims.WF S64x1024x1024 S64x1024x512 S64x1024x512 [2] [1] [1] [2] [0] [0]

variable [Facts₀]

def dot_S64x1024x512_S64x1024x512_S64x1024x1024_2_2_1_1_0_0 : DotDims S64x1024x512 S64x1024x512 S64x1024x1024 where
  lhsContracting := [2]
  rhsContracting := [2]
  lhsNonContracting := [1]
  rhsNonContracting := [1]
  lhsBatch := [0]
  rhsBatch := [0]
  wf := dot_S64x1024x512_S64x1024x512_S64x1024x1024_2_2_1_1_0_0_wf
def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf

class Facts : Prop extends Facts₀ where

variable [Facts]
-- ==== Proof.PreFacts.lean ====
/-
  What the precondition says of the two argument arrays, at the extended reals: every entry is a real number, and for
  every batch member and feature the sum over the tokens of the squared entries is not zero (so neither column norm
  the reference divides by is zero).
-/
import proofs.«123215_j14113262535183_2_alg».proof.Pre_finite_inputs
import proofs.«123215_j14113262535183_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx Cert.Pre_finite_inputs Cert.Pre_finite_inputs.Facts

/-- The scalar shape has exactly one index. -/
instance : Subsingleton S_.Idx := ⟨fun _ _ => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (-x) is strictly below +∞ is a real number:
    at -∞ and at +∞ the absolute value is +∞ itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The comparison "not equal" answering 1 says the two extended reals differ. -/
theorem ne_of_cmp_une (a b : EReal) (h : Ideal.cmp .une a b = 1#1) : a ≠ b := by
  intro hab
  simp [Ideal.cmp, hab] at h

/-- all (|X| < +∞): every entry of X is a real number. -/
theorem finite_of_all (X : FVec Ideal S64x1024x512 .f32)
    (h : Host.reduce IntOp.andi
      (cmpf .olt (Host.absf X) (broadcastInDim S64x1024x512 ![] bcast_S_S64x1024x512 (constant S_ .f32 0x7F800000#32)))
      (constantI S_ 1 1#1) reducesTo_S64x1024x512_S_d0_1_2 h_S_ ix0 = 1#1) (i : S64x1024x512.Idx) :
    ∃ r : ℝ, X i = (r : EReal) := by
  have e := Host.reduce_andi_all _ _ _ _ _ h i
  apply real_of_abs_lt_top
  rw [← ofBits_inf]
  exact e

/-- The host's sum over the token axis of X * X, read at (b, d), is the sum over n of X[b, n, d] squared. -/
theorem sumsq_apply (X : FVec Ideal S64x1024x512 .f32) (b : Fin 64) (d : Fin 512) :
    Host.reduceAdd (mulf X X) (constant S_ .f32 0x00000000#32) reducesTo_S64x1024x512_S64x512_d1 h_S_ (ix2 b d)
      = ∑ n : Fin 1024, X (ix3 b n d) * X (ix3 b n d) := by
  rw [hostReduceAdd_apply, Ideal.hostReduceAdd_single reducesTo_S64x1024x512_S64x512_d1 (by decide)]
  rw [constant_apply, Ideal.ofBits_zero_f32, zero_add]
  refine Finset.sum_congr rfl fun k _ => ?_
  exact congrArg (fun i => X i * X i)
    (funext fun a => Fin.ext (by match a with | ⟨0, _⟩ => rfl | ⟨1, _⟩ => rfl | ⟨2, _⟩ => rfl))

/-- all (Σₙ X² ≠ 0): at every batch member and feature the sum of squares over the tokens is not zero. -/
theorem sumsq_ne_zero (X : FVec Ideal S64x1024x512 .f32)
    (h : Host.reduce IntOp.andi
      (cmpf .une (Host.reduceAdd (mulf X X) (constant S_ .f32 0x00000000#32) reducesTo_S64x1024x512_S64x512_d1 h_S_)
        (broadcastInDim S64x512 ![] bcast_S_S64x512 (constant S_ .f32 0x00000000#32)))
      (constantI S_ 1 1#1) reducesTo_S64x512_S_d0_1 h_S_ ix0 = 1#1) (b : Fin 64) (d : Fin 512) :
    (∑ n : Fin 1024, X (ix3 b n d) * X (ix3 b n d)) ≠ 0 := by
  have e := Host.reduce_andi_all _ _ _ _ _ h (ix2 b d)
  rw [← sumsq_apply X b d, ← Ideal.ofBits_zero_f32]
  exact ne_of_cmp_une _ _ e

theorem of_pre (X Y : FVec Ideal S64x1024x512 .f32)
    (h : Cert.Pre_finite_inputs.fn (F := Ideal) X Y = fun _ => 1#1) :
    (∀ i, ∃ r : ℝ, X i = (r : EReal)) ∧ (∀ i, ∃ r : ℝ, Y i = (r : EReal))
    ∧ (∀ (b : Fin 64) (d : Fin 512), (∑ n : Fin 1024, X (ix3 b n d) * X (ix3 b n d)) ≠ 0)
    ∧ (∀ (b : Fin 64) (d : Fin 512), (∑ n : Fin 1024, Y (ix3 b n d) * Y (ix3 b n d)) ≠ 0) := by
  have h0 := congrFun h ValueIdx.ix0
  dsimp only [fn, fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨finite_of_all X h1, finite_of_all Y h2, sumsq_ne_zero X h3, sumsq_ne_zero Y h4⟩

end Cert.PreFacts

end
-- ==== Proof.RowMath.lean ====
/-
  One batch member of the computation, as pure functions of its two matrices over the extended reals:
  `x : Fin N → Fin D → EReal` (tokens by features) and `y : Fin M → Fin D → EReal`.

  Each feature column is scaled by its Euclidean norm over the tokens, the rows of `y` are scored against the rows
  of `x` by the inner product of the scaled rows, each row of scores goes through a softmax, and the result is the
  product of `1 - softmax` with `x`. Two spellings of that value are defined here:
  • `scoreR`, `outR`: each matrix divided by its own column norms before the inner product, and the weights
    `1 - e / Σ e` applied to `x` entry by entry;
  • `scoreK`, `outK`: one factor `1 / (‖x_d‖ · ‖y_d‖)` folded into `y` alone, and the result written as the column
    sum of `x` minus `(Σ e · x) · (1 / Σ e)`.
  The law that they agree (on real entries with nonzero column norms) is in RowMathLaw.lean.
-/
import Idealize.ShloMosaic.PureOps.Ideal
import Idealize.ShloMosaic.PureOps.Ideal.Laws

noncomputable section

namespace Cert.RowMath

open Idealize.ShloMosaic

variable {N M D : ℕ}

/-- The Euclidean norm of feature column `d` over the tokens: the square root of the sum of squares. -/
def colNorm (x : Fin N → Fin D → EReal) (d : Fin D) : EReal := Ideal.sqrt (∑ n, x n d * x n d)

/-- The score of row `m` of `y` against row `n` of `x`, each matrix divided by its own column norms first. -/
def scoreR (x : Fin N → Fin D → EReal) (y : Fin M → Fin D → EReal) (m : Fin M) (n : Fin N) : EReal :=
  ∑ d, Ideal.div (y m d) (colNorm y d) * Ideal.div (x n d) (colNorm x d)

/-- The same score with both norms folded into one factor on `y`. -/
def scoreK (x : Fin N → Fin D → EReal) (y : Fin M → Fin D → EReal) (m : Fin M) (n : Fin N) : EReal :=
  ∑ d, (y m d * Ideal.div 1 (colNorm x d * colNorm y d)) * x n d

/-- The largest score of row `m`, as the fold of `max` from `-∞`. -/
def rowMax (s : Fin M → Fin N → EReal) (m : Fin M) : EReal := Finset.univ.fold max ⊥ (fun n => s m n)

/-- The shifted exponential of a score: `exp (s m n - max_n s m n)`. -/
def expo (s : Fin M → Fin N → EReal) (m : Fin M) (n : Fin N) : EReal := Ideal.exp (s m n - rowMax s m)

/-- The softmax denominator of row `m`. -/
def expSum (s : Fin M → Fin N → EReal) (m : Fin M) : EReal := ∑ n, expo s m n

/-- `(1 - softmax s) · x` at `(m, d)`, the weights applied entry by entry. -/
def outR (x : Fin N → Fin D → EReal) (s : Fin M → Fin N → EReal) (m : Fin M) (d : Fin D) : EReal :=
  ∑ n, (1 - Ideal.div (expo s m n) (expSum s m)) * x n d

/-- The same value as the column sum of `x` minus `(Σ e · x) · (1 / Σ e)`. -/
def outK (x : Fin N → Fin D → EReal) (s : Fin M → Fin N → EReal) (m : Fin M) (d : Fin D) : EReal :=
  (∑ n, x n d) - (∑ n, expo s m n * x n d) * Ideal.div 1 (expSum s m)

/-! ## The three float words the two programs carry -/

/-- The word of `0.0` is the extended real `0`. -/
theorem ofBits_zero : Ideal.ofBits .f32 0x00000000#32 = 0 := Ideal.ofBits_zero_f32

/-- The word of `1.0` is the extended real `1`. -/
theorem ofBits_one : Ideal.ofBits .f32 0x3F800000#32 = 1 := IdealRules.sign_bit.ideal_onePat .f32

/-- The word of `-inf` is the bottom of the extended reals. -/
theorem ofBits_negInf : Ideal.ofBits .f32 0xFF800000#32 = ⊥ := by
  simp [Ideal.ofBits, Ideal.ieee]

end Cert.RowMath

end
-- ==== Proof.Layout.lean ====
/-
  Two layout operations on a column read at an index given by coordinates: a vector of length `a` re-laid as an
  `[a, 1]` column, and an `[a, 1]` column broadcast along the rows of an `[a, b]` matrix. (The row forms, `[a] → [1, a]`
  and `[1, b] → [a, b]`, are in the library.)
-/
import Idealize.ShloMosaic.Lib.ValueLayout

namespace Cert.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.KernelRow.lean ====
/-
  What the kernel's body stores for one batch member, read at an index: with `x` and `y` the two loaded blocks as
  matrices, entry `(m, d)` of the stored block is `RowMath.outK x (RowMath.scoreK x y) m d`.

  The body's arithmetic is cut here into its stages — the column norms, the folded scale `1 / (‖x_d‖ · ‖y_d‖)`, the score
  matrix (a matrix product contracting the feature axis of both operands), the shifted exponentials, the reciprocal of
  their row sums, and the result (the column sums of `x` minus a second matrix product scaled row by row) — and each stage
  is read at an index: a lane sum as a sum over the reduced axis, a matrix product as a sum over the contracted axis, a
  change of float format as the identity, a keepdims cast or broadcast as the entry it repeats.
-/
import proofs.«123215_j14113262535183_2_alg».proof.Proof.Gen.KernelIdeal.Skeleton
import proofs.«123215_j14113262535183_2_alg».proof.Proof.RowMath
import proofs.«123215_j14113262535183_2_alg».proof.Proof.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Idealize.ShloMosaic Idealize.ShloMosaic.ValueIdx Cert.KernelIdeal Cert.KernelIdeal.Gen Cert.RowMath Cert.Layout

/-! ## The stages of the body -/

section Stages

variable {F : FTy → Type} [FloatOps F]

/-- The score product: it contracts the feature axis (axis 1) of both operands. -/
abbrev dotS := dot_S1024x512_S1024x512_S1024x1024_1_1_0_0_n_n
/-- The value product: it contracts the token axis, axis 1 of the weights with axis 0 of `x`. -/
abbrev dotV := dot_S1024x1024_S1024x512_S1024x512_1_0_0_1_n_n

/-- A loaded block `[1, N, D]` as a matrix `[N, D]`. -/
def rows (v0 : Vec F S1x1024x512 .f32) : FVec F S1024x512 .f32 :=
  shapeCast S1024x512 v0 shapeCasts_S1x1024x512_S1024x512

/-- The norm of every feature column, as a `[1, D]` row. -/
def norms (v : FVec F S1024x512 .f32) : FVec F S1x512 .f32 :=
  sqrt (shapeCast S1x512 (multiReduction .add [0] S512 (mulf v v) 0x00000000#32 reduces_S1024x512_S512 (.inl rfl) rfl) shapeCasts_S512_S1x512)

/-- The folded scale `1 / (‖x_d‖ · ‖y_d‖)`, as a `[1, D]` row. -/
def scale (x y : FVec F S1024x512 .f32) : FVec F S1x512 .f32 :=
  divf (broadcast S1x512 (Scalar.ofBits .f32 0x3F800000#32)) (mulf (norms x) (norms y))

/-- The score matrix `[M, N]`. -/
def scores (x y : FVec F S1024x512 .f32) : FVec F S1024x1024 .f32 :=
  matmul dotS none (truncf .bf16 (mulf y (broadcastTo S1024x512 (scale x y) broadcasts_S1x512_S1024x512)) bitsLt_bf16_f32)
    (truncf .bf16 x bitsLt_bf16_f32) (constant S1024x1024 .f32 0x00000000#32)

/-- The exponentials of the scores shifted by their row maximum. -/
def shifted (s : FVec F S1024x1024 .f32) : FVec F S1024x1024 .f32 :=
  exp (subf s (broadcastTo S1024x1024 (shapeCast S1024x1 (multiReduction .maximumf [1] S1024 s 0xFF800000#32 reduces_S1024x1024_S1024 (.inl rfl) rfl)
    shapeCasts_S1024_S1024x1) broadcasts_S1024x1_S1024x1024))

/-- The reciprocal of each row sum, as an `[M, 1]` column. -/
def invSum (e : FVec F S1024x1024 .f32) : FVec F S1024x1 .f32 :=
  divf (broadcast S1024x1 (Scalar.ofBits .f32 0x3F800000#32))
    (shapeCast S1024x1 (multiReduction .add [1] S1024 e 0x00000000#32 reduces_S1024x1024_S1024 (.inl rfl) rfl) shapeCasts_S1024_S1024x1)

/-- The result `[M, D]`: the column sums of `x` minus the weighted product scaled by the reciprocal row sums. -/
def result (x : FVec F S1024x512 .f32) (e : FVec F S1024x1024 .f32) : FVec F S1024x512 .f32 :=
  subf (broadcastTo S1024x512 (shapeCast S1x512 (multiReduction .add [0] S512 x 0x00000000#32 reduces_S1024x512_S512 (.inl rfl) rfl) shapeCasts_S512_S1x512)
      broadcasts_S1x512_S1024x512)
    (mulf (matmul dotV none (truncf .bf16 e bitsLt_bf16_f32) (truncf .bf16 x bitsLt_bf16_f32) (constant S1024x512 .f32 0x00000000#32))
      (broadcastTo S1024x512 (invSum e) broadcasts_S1024x1_S1024x512))

/-- The body's stored value is the composition of the stages. -/
theorem pay_eq (v0 v2 : Vec F S1x1024x512 .f32) :
    k0_pay1 v0 v2 = shapeCast S1x1024x512 (result (rows v0) (shifted (scores (rows v0) (rows v2)))) shapeCasts_S1024x512_S1x1024x512 := rfl

end Stages

/-! ## Reductions read at an index -/

/-- A sum over the rows of an `[N, D]` matrix, at column `d`. -/
theorem colSum_apply (v : FVec Ideal S1024x512 .f32) (h : S1024x512.Reduces [0] S512) (hφ : FKind.Formats .f32)
    (hacc : (0x00000000#32 : BitVec 32) = FKind.add.neutral .f32 hφ) (d : Fin 512) :
    multiReduction .add [0] S512 v 0x00000000#32 h hφ hacc (ix1 d) = ∑ n : Fin 1024, v (ix2 n d) :=
  (Ideal.multiReduction_add_single v _ h hφ hacc (ix1 d)).trans
    (Finset.sum_congr rfl fun n _ => congrArg v (funext fun a => Fin.ext (by match a with | ⟨0, _⟩ => rfl | ⟨1, _⟩ => rfl)))

/-- A sum along the rows of an `[M, N]` matrix, at row `m`. -/
theorem rowSum_apply (v : FVec Ideal S1024x1024 .f32) (h : S1024x1024.Reduces [1] S1024) (hφ : FKind.Formats .f32)
    (hacc : (0x00000000#32 : BitVec 32) = FKind.add.neutral .f32 hφ) (m : Fin 1024) :
    multiReduction .add [1] S1024 v 0x00000000#32 h hφ hacc (ix1 m) = ∑ n : Fin 1024, v (ix2 m n) :=
  (Ideal.multiReduction_add_single v _ h hφ hacc (ix1 m)).trans
    (Finset.sum_congr rfl fun n _ => congrArg v (funext fun a => Fin.ext (by match a with | ⟨0, _⟩ => rfl | ⟨1, _⟩ => rfl)))

/-- A maximum along the rows of an `[M, N]` matrix, at row `m`: the fold of `max` from `-∞`. -/
theorem rowMax_apply (v : FVec Ideal S1024x1024 .f32) (h : S1024x1024.Reduces [1] S1024) (hφ : FKind.Formats .f32)
    (hacc : (0xFF800000#32 : BitVec 32) = FKind.maximumf.neutral .f32 hφ) (m : Fin 1024) :
    multiReduction .maximumf [1] S1024 v 0xFF800000#32 h hφ hacc (ix1 m) = Finset.univ.fold max ⊥ (fun n : Fin 1024 => v (ix2 m n)) :=
  (Ideal.multiReduction_maximumf_single v _ h hφ hacc (ix1 m)).trans (by
    show Finset.univ.fold max (Ideal.ofBits .f32 0xFF800000#32) _ = _
    rw [ofBits_negInf]
    exact congrArg (Finset.univ.fold max ⊥) (funext fun n => congrArg v (funext fun a => Fin.ext (by
      match a with | ⟨0, _⟩ => rfl | ⟨1, _⟩ => rfl))))

/-! ## The two matrix products read at an index -/

theorem dotS_lhs0 (i : S1024x1024.Idx) (q : dotS.contr.Idx) : (dotS.lhsIdx i q 0).val = (i 0).val := by
  unfold DotDims.lhsIdx
  rw [dif_neg (show ¬(0 : Fin S1024x512.rank) ∈ dotS.lhsBatch by decide), dif_pos (show (0 : Fin S1024x512.rank) ∈ dotS.lhsNonContracting by decide)]
  rfl
theorem dotS_lhs1 (i : S1024x1024.Idx) (q : dotS.contr.Idx) : (dotS.lhsIdx i q 1).val = (q ⟨0, by decide⟩).val :=
  dotS.lhsIdx_val_of_single rfl i q
theorem dotS_rhs0 (i : S1024x1024.Idx) (q : dotS.contr.Idx) : (dotS.rhsIdx i q 0).val = (i 1).val := by
  unfold DotDims.rhsIdx
  rw [dif_neg (show ¬(0 : Fin S1024x512.rank) ∈ dotS.rhsBatch by decide), dif_pos (show (0 : Fin S1024x512.rank) ∈ dotS.rhsNonContracting by decide)]
  rfl
theorem dotS_rhs1 (i : S1024x1024.Idx) (q : dotS.contr.Idx) : (dotS.rhsIdx i q 1).val = (q ⟨0, by decide⟩).val :=
  dotS.rhsIdx_val_of_single rfl i q

/-- The score product at `(m, n)`: the sum over the features of row `m` of the left operand times row `n` of the right. -/
theorem scoreProd_apply (L R : FVec Ideal S1024x512 .bf16) (m n : Fin 1024) :
    matmul dotS none L R (constant (F := Ideal) S1024x1024 .f32 0x00000000#32) (ix2 m n) = ∑ d : Fin 512, L (ix2 m d) * R (ix2 n d) := by
  simp only [matmul]
  rw [Ideal.matmul_constant_zero_apply, ← Equiv.sum_comp (ValueIdx.contrEquiv1 dotS 512 rfl rfl).symm]
  refine Finset.sum_congr rfl fun k _ => ?_
  have hk := ValueIdx.contrEquiv1_symm_val dotS 512 rfl rfl k
  have el : dotS.lhsIdx (ix2 m n) ((ValueIdx.contrEquiv1 dotS 512 rfl rfl).symm k) = ix2 m k := funext fun a => Fin.ext (by
    match a with
    | ⟨0, _⟩ => exact dotS_lhs0 _ _
    | ⟨1, _⟩ => exact (dotS_lhs1 _ _).trans hk)
  have er : dotS.rhsIdx (ix2 m n) ((ValueIdx.contrEquiv1 dotS 512 rfl rfl).symm k) = ix2 n k := funext fun a => Fin.ext (by
    match a with
    | ⟨0, _⟩ => exact dotS_rhs0 _ _
    | ⟨1, _⟩ => exact (dotS_rhs1 _ _).trans hk)
  rw [el, er]

theorem dotV_lhs0 (i : S1024x512.Idx) (q : dotV.contr.Idx) : (dotV.lhsIdx i q 0).val = (i 0).val := by
  unfold DotDims.lhsIdx
  rw [dif_neg (show ¬(0 : Fin S1024x1024.rank) ∈ dotV.lhsBatch by decide), dif_pos (show (0 : Fin S1024x1024.rank) ∈ dotV.lhsNonContracting by decide)]
  rfl
theorem dotV_lhs1 (i : S1024x512.Idx) (q : dotV.contr.Idx) : (dotV.lhsIdx i q 1).val = (q ⟨0, by decide⟩).val :=
  dotV.lhsIdx_val_of_single rfl i q
theorem dotV_rhs0 (i : S1024x512.Idx) (q : dotV.contr.Idx) : (dotV.rhsIdx i q 0).val = (q ⟨0, by decide⟩).val :=
  dotV.rhsIdx_val_of_single rfl i q
theorem dotV_rhs1 (i : S1024x512.Idx) (q : dotV.contr.Idx) : (dotV.rhsIdx i q 1).val = (i 1).val := by
  unfold DotDims.rhsIdx
  rw [dif_neg (show ¬(1 : Fin S1024x512.rank) ∈ dotV.rhsBatch by decide), dif_pos (show (1 : Fin S1024x512.rank) ∈ dotV.rhsNonContracting by decide)]
  rfl

/-- The value product at `(m, d)`: the sum over the tokens of the weight `(m, n)` times `x` at `(n, d)`. -/
theorem valueProd_apply (L : FVec Ideal S1024x1024 .bf16) (R : FVec Ideal S1024x512 .bf16) (m : Fin 1024) (d : Fin 512) :
    matmul dotV none L R (constant (F := Ideal) S1024x512 .f32 0x00000000#32) (ix2 m d) = ∑ n : Fin 1024, L (ix2 m n) * R (ix2 n d) := by
  simp only [matmul]
  rw [Ideal.matmul_constant_zero_apply, ← Equiv.sum_comp (ValueIdx.contrEquiv1 dotV 1024 rfl rfl).symm]
  refine Finset.sum_congr rfl fun k _ => ?_
  have hk := ValueIdx.contrEquiv1_symm_val dotV 1024 rfl rfl k
  have el : dotV.lhsIdx (ix2 m d) ((ValueIdx.contrEquiv1 dotV 1024 rfl rfl).symm k) = ix2 m k := funext fun a => Fin.ext (by
    match a with
    | ⟨0, _⟩ => exact dotV_lhs0 _ _
    | ⟨1, _⟩ => exact (dotV_lhs1 _ _).trans hk)
  have er : dotV.rhsIdx (ix2 m d) ((ValueIdx.contrEquiv1 dotV 1024 rfl rfl).symm k) = ix2 k d := funext fun a => Fin.ext (by
    match a with
    | ⟨0, _⟩ => exact (dotV_rhs0 _ _).trans hk
    | ⟨1, _⟩ => exact dotV_rhs1 _ _)
  rw [el, er]

/-! ## Each stage read at an index -/

theorem rows_apply (v0 : Vec Ideal S1x1024x512 .f32) (n : Fin 1024) (d : Fin 512) :
    rows v0 (ix2 n d) = v0 (ix3 (0 : Fin 1) n d) :=
  shapeCast_1ab_ab_apply v0 _ n d

theorem norms_apply (v : FVec Ideal S1024x512 .f32) (u : Fin 1) (d : Fin 512) :
    norms v (ix2 u d) = Ideal.sqrt (∑ n : Fin 1024, v (ix2 n d) * v (ix2 n d)) :=
  congrArg Ideal.sqrt ((shapeCast_a_1a_apply _ shapeCasts_S512_S1x512 u d).trans (colSum_apply (mulf v v) _ _ _ d))

theorem scale_apply (x y : FVec Ideal S1024x512 .f32) (u : Fin 1) (d : Fin 512) :
    scale x y (ix2 u d) = Ideal.div 1 (Ideal.sqrt (∑ n : Fin 1024, x (ix2 n d) * x (ix2 n d)) * Ideal.sqrt (∑ n : Fin 1024, y (ix2 n d) * y (ix2 n d))) := by
  show Ideal.div (Ideal.ofBits .f32 0x3F800000#32) (norms x (ix2 u d) * norms y (ix2 u d)) = _
  rw [ofBits_one, norms_apply, norms_apply]

theorem scores_apply (x y : FVec Ideal S1024x512 .f32) (m n : Fin 1024) :
    scores x y (ix2 m n) = ∑ d : Fin 512, (y (ix2 m d) * Ideal.div 1 (Ideal.sqrt (∑ k : Fin 1024, x (ix2 k d) * x (ix2 k d)) * Ideal.sqrt (∑ k : Fin 1024, y (ix2 k d) * y (ix2 k d)))) * x (ix2 n d) := by
  unfold scores
  refine (scoreProd_apply _ _ m n).trans (Finset.sum_congr rfl fun d _ => ?_)
  show (y (ix2 m d) * broadcastTo S1024x512 (scale x y) broadcasts_S1x512_S1024x512 (ix2 m d)) * x (ix2 n d) = _
  rw [broadcastTo_1b_ab_apply, scale_apply]

theorem shifted_apply (s : FVec Ideal S1024x1024 .f32) (m n : Fin 1024) :
    shifted s (ix2 m n) = Ideal.exp (s (ix2 m n) - Finset.univ.fold max ⊥ (fun k : Fin 1024 => s (ix2 m k))) := by
  show Ideal.exp (s (ix2 m n) - broadcastTo S1024x1024 _ broadcasts_S1024x1_S1024x1024 (ix2 m n)) = _
  rw [broadcastTo_a1_ab_apply, shapeCast_a_a1_apply]
  exact congrArg (fun t => Ideal.exp (s (ix2 m n) - t)) (rowMax_apply s _ _ _ m)

theorem invSum_apply (e : FVec Ideal S1024x1024 .f32) (m : Fin 1024) (u : Fin 1) :
    invSum e (ix2 m u) = Ideal.div 1 (∑ n : Fin 1024, e (ix2 m n)) := by
  show Ideal.div (Ideal.ofBits .f32 0x3F800000#32) (shapeCast S1024x1 _ shapeCasts_S1024_S1024x1 (ix2 m u)) = _
  rw [ofBits_one, shapeCast_a_a1_apply]
  exact congrArg (Ideal.div 1) (rowSum_apply e _ _ _ m)

theorem result_apply (x : FVec Ideal S1024x512 .f32) (e : FVec Ideal S1024x1024 .f32) (m : Fin 1024) (d : Fin 512) :
    result x e (ix2 m d) = (∑ n : Fin 1024, x (ix2 n d)) - (∑ n : Fin 1024, e (ix2 m n) * x (ix2 n d)) * Ideal.div 1 (∑ n : Fin 1024, e (ix2 m n)) := by
  show broadcastTo S1024x512 _ broadcasts_S1x512_S1024x512 (ix2 m d)
      - matmul dotV none (truncf .bf16 e bitsLt_bf16_f32) (truncf .bf16 x bitsLt_bf16_f32) (constant (F := Ideal) S1024x512 .f32 0x00000000#32) (ix2 m d)
        * broadcastTo S1024x512 (invSum e) broadcasts_S1024x1_S1024x512 (ix2 m d) = _
  rw [broadcastTo_1b_ab_apply, shapeCast_a_1a_apply, valueProd_apply, broadcastTo_a1_ab_apply, invSum_apply]
  exact congrArg (fun t => t - (∑ n : Fin 1024, e (ix2 m n) * x (ix2 n d)) * Ideal.div 1 (∑ n : Fin 1024, e (ix2 m n)))
    (colSum_apply x _ _ _ d)

/-! ## The stored block is `outK` of the two loaded blocks -/

/-- Entry `(m, d)` of what the body stores, from the loaded blocks `v0` (the block of `x`) and `v2` (the block of `y`). -/
theorem pay_apply (v0 v2 : Vec Ideal S1x1024x512 .f32) (u : Fin 1) (m : Fin 1024) (d : Fin 512) :
    k0_pay1 (F := Ideal) v0 v2 (ix3 u m d)
      = outK (fun n d => v0 (ix3 (0 : Fin 1) n d)) (scoreK (fun n d => v0 (ix3 (0 : Fin 1) n d)) (fun k d => v2 (ix3 (0 : Fin 1) k d))) m d := by
  rw [pay_eq, shapeCast_ab_1ab_apply, result_apply]
  have hs : ∀ k n : Fin 1024, shifted (scores (rows v0) (rows v2)) (ix2 k n)
      = expo (scoreK (fun n d => v0 (ix3 (0 : Fin 1) n d)) (fun k d => v2 (ix3 (0 : Fin 1) k d))) k n := by
    intro k n
    rw [shifted_apply]
    simp only [scores_apply, rows_apply]
    rfl
  simp only [hs, rows_apply]
  rfl

/-- The same at any index `y` of the block, by its coordinates. -/
theorem pay_at (v0 v2 : Vec Ideal S1x1024x512 .f32) (y : S1x1024x512.Idx) :
    k0_pay1 (F := Ideal) v0 v2 y
      = outK (fun n d => v0 (ix3 (0 : Fin 1) n d)) (scoreK (fun n d => v0 (ix3 (0 : Fin 1) n d)) (fun k d => v2 (ix3 (0 : Fin 1) k d)))
          (y 1) (y 2) := by
  exact (congrArg (k0_pay1 (F := Ideal) v0 v2) (eq_ix3 y)).trans (pay_apply v0 v2 (y 0) (y 1) (y 2))

end Cert.KernelRow

end
-- ==== Proof.RowMathLaw.lean ====
/-
  The law joining the two spellings of one batch member's value (RowMath.lean): on real entries whose feature columns
  all have a nonzero sum of squares, `outK x (scoreK x y) = outR x (scoreR x y)`.

  Why it holds. Every entry is a real and every column norm a positive real, so (i) the two scores agree term by term,
  `(y · (1 / (a · b))) · x = (y / b) · (x / a)` for reals `a, b ≠ 0`, and each score is a real; (ii) a row of finitely many
  real scores (there is at least one) has a real maximum, so every shifted exponential is a positive real and their sum
  `l` is a positive real; (iii) over the reals `Σ (1 - e / l) · x = Σ x - (Σ e · x) · (1 / l)` by distributing the
  product over the difference and pulling the constant `1 / l` out of the sum.
-/
import proofs.«123215_j14113262535183_2_alg».proof.Proof.RowMath

noncomputable section

namespace Cert.RowMath

open Idealize.ShloMosaic

/-! ## Finite sums and folds of coerced reals -/

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  refine Finset.induction_on s ?_ ?_
  · simp
  · intro i t hi ih
    rw [Finset.sum_insert hi, Finset.sum_insert hi, ih, EReal.coe_add]

/-- The sum of squares of a column of coerced reals is the coercion of the real sum of squares. -/
theorem sumsq_coe {N D : ℕ} (a : Fin N → Fin D → ℝ) (d : Fin D) :
    (∑ n, ((a n d : ℝ) : EReal) * ((a n d : ℝ) : EReal)) = ((∑ n, a n d * a n d : ℝ) : EReal) := by
  rw [← coe_sum]
  exact Finset.sum_congr rfl (fun n _ => (EReal.coe_mul _ _).symm)

/-- The fold of `max` from `-∞` over a nonempty finite family of coerced reals is a coerced real. -/
theorem fold_max_coe {ι : Type*} (s : Finset ι) (f : ι → ℝ) (hs : s.Nonempty) :
    ∃ r : ℝ, s.fold max ⊥ (fun i => ((f i : ℝ) : EReal)) = (r : EReal) := by
  classical
  revert hs
  refine Finset.induction_on s ?_ ?_
  · intro h
    exact absurd h Finset.not_nonempty_empty
  · intro i t hi ih _
    rw [Finset.fold_insert hi]
    rcases t.eq_empty_or_nonempty with ht | ht
    · subst ht
      exact ⟨f i, by rw [Finset.fold_empty, max_eq_left bot_le]⟩
    · obtain ⟨r, hr⟩ := ih ht
      rw [hr]
      rcases le_total (f i) r with h | h
      · exact ⟨r, max_eq_right (EReal.coe_le_coe_iff.mpr h)⟩
      · exact ⟨f i, max_eq_left (EReal.coe_le_coe_iff.mpr h)⟩

/-! ## The column norms and the scores -/

/-- A column of reals with a nonzero sum of squares has a nonzero real Euclidean norm. -/
theorem colNorm_coe {N D : ℕ} (a : Fin N → Fin D → ℝ) (d : Fin D) (h : (∑ n, a n d * a n d) ≠ 0) :
    ∃ c : ℝ, c ≠ 0 ∧ colNorm (fun n d => ((a n d : ℝ) : EReal)) d = (c : EReal) := by
  have h0 : 0 ≤ ∑ n, a n d * a n d := Finset.sum_nonneg (fun n _ => mul_self_nonneg _)
  refine ⟨Real.sqrt (∑ n, a n d * a n d), ?_, ?_⟩
  · exact (Real.sqrt_pos.mpr (lt_of_le_of_ne h0 (Ne.symm h))).ne'
  · unfold colNorm
    rw [sumsq_coe, Ideal.sqrt_coe, if_neg (not_lt.mpr h0)]

/-- Both scores are the same real: the sum over the features of `(b / ‖b‖) · (a / ‖a‖)`. -/
theorem score_coe {N M D : ℕ} (a : Fin N → Fin D → ℝ) (b : Fin M → Fin D → ℝ)
    (ha : ∀ d, (∑ n, a n d * a n d) ≠ 0) (hb : ∀ d, (∑ m, b m d * b m d) ≠ 0) (m : Fin M) (n : Fin N) :
    ∃ s : ℝ,
      scoreK (fun n d => ((a n d : ℝ) : EReal)) (fun m d => ((b m d : ℝ) : EReal)) m n = (s : EReal) ∧
      scoreR (fun n d => ((a n d : ℝ) : EReal)) (fun m d => ((b m d : ℝ) : EReal)) m n = (s : EReal) := by
  choose ca hca0 hca using fun d => colNorm_coe a d (ha d)
  choose cb hcb0 hcb using fun d => colNorm_coe b d (hb d)
  refine ⟨∑ d, b m d / cb d * (a n d / ca d), ?_, ?_⟩
  · unfold scoreK
    rw [← coe_sum]
    refine Finset.sum_congr rfl (fun d _ => ?_)
    rw [hca d, hcb d, ← EReal.coe_mul, Ideal.div_coe (mul_ne_zero (hca0 d) (hcb0 d)), one_mul, ← EReal.coe_mul,
      ← EReal.coe_mul]
    congr 1
    have h1 := hca0 d
    have h2 := hcb0 d
    field_simp
  · unfold scoreR
    rw [← coe_sum]
    refine Finset.sum_congr rfl (fun d _ => ?_)
    rw [hca d, hcb d, Ideal.div_coe (hca0 d), Ideal.div_coe (hcb0 d), ← EReal.coe_mul, ← EReal.coe_mul,
      ← EReal.coe_mul]
    congr 1
    have h1 := hca0 d
    have h2 := hcb0 d
    field_simp

/-! ## The softmax and the two outputs on real scores -/

/-- On real entries and real scores (with at least one token) the two outputs agree. -/
theorem out_coe {N M D : ℕ} (a : Fin N → Fin D → ℝ) (s : Fin M → Fin N → ℝ) (hN : N ≠ 0) (m : Fin M) (d : Fin D) :
    outK (fun n d => ((a n d : ℝ) : EReal)) (fun m n => ((s m n : ℝ) : EReal)) m d =
      outR (fun n d => ((a n d : ℝ) : EReal)) (fun m n => ((s m n : ℝ) : EReal)) m d := by
  haveI : Nonempty (Fin N) := ⟨⟨0, Nat.pos_of_ne_zero hN⟩⟩
  -- the row maximum is a real `μ`
  obtain ⟨μ, hμ⟩ := fold_max_coe (Finset.univ : Finset (Fin N)) (fun n => s m n) Finset.univ_nonempty
  have hrow : rowMax (fun m n => ((s m n : ℝ) : EReal)) m = (μ : EReal) := hμ
  -- every shifted exponential is the positive real `exp (s - μ)`
  have hexpo : ∀ n, expo (fun m n => ((s m n : ℝ) : EReal)) m n = ((Real.exp (s m n - μ) : ℝ) : EReal) := by
    intro n
    unfold expo
    rw [hrow, ← EReal.coe_sub, Ideal.exp_coe]
  -- their sum is a positive real `l`
  have hsum : expSum (fun m n => ((s m n : ℝ) : EReal)) m = ((∑ n, Real.exp (s m n - μ) : ℝ) : EReal) := by
    unfold expSum
    rw [← coe_sum]
    exact Finset.sum_congr rfl (fun n _ => hexpo n)
  have hl : (∑ n : Fin N, Real.exp (s m n - μ)) ≠ 0 :=
    (Finset.sum_pos (fun n _ => Real.exp_pos _) Finset.univ_nonempty).ne'
  -- the left side as a coerced real
  have hK : outK (fun n d => ((a n d : ℝ) : EReal)) (fun m n => ((s m n : ℝ) : EReal)) m d =
      (((∑ n, a n d) - (∑ n, Real.exp (s m n - μ) * a n d) * (1 / ∑ n, Real.exp (s m n - μ)) : ℝ) : EReal) := by
    unfold outK
    have h2 : (∑ n, expo (fun m n => ((s m n : ℝ) : EReal)) m n * ((a n d : ℝ) : EReal)) =
        ((∑ n, Real.exp (s m n - μ) * a n d : ℝ) : EReal) := by
      rw [← coe_sum]
      refine Finset.sum_congr rfl (fun n _ => ?_)
      rw [hexpo n, ← EReal.coe_mul]
    rw [h2, hsum, Ideal.div_coe hl, one_mul, coe_sum, ← EReal.coe_mul, ← EReal.coe_sub]
  -- the right side as a coerced real
  have hR : outR (fun n d => ((a n d : ℝ) : EReal)) (fun m n => ((s m n : ℝ) : EReal)) m d =
      ((∑ n, (1 - Real.exp (s m n - μ) * (1 / ∑ n, Real.exp (s m n - μ))) * a n d : ℝ) : EReal) := by
    unfold outR
    rw [← coe_sum]
    refine Finset.sum_congr rfl (fun n _ => ?_)
    rw [hexpo n, hsum, Ideal.div_coe hl, ← EReal.coe_mul, ← EReal.coe_one, ← EReal.coe_sub, ← EReal.coe_mul]
  rw [hK, hR]
  congr 1
  rw [Finset.sum_mul, ← Finset.sum_sub_distrib]
  exact Finset.sum_congr rfl (fun n _ => by ring)

/-! ## The law -/

theorem outK_eq_outR {N M D : ℕ} (x : Fin N → Fin D → EReal) (y : Fin M → Fin D → EReal)
    (hx : ∀ n d, ∃ r : ℝ, x n d = (r : EReal)) (hy : ∀ m d, ∃ r : ℝ, y m d = (r : EReal))
    (hnx : ∀ d, (∑ n, x n d * x n d) ≠ 0) (hny : ∀ d, (∑ m, y m d * y m d) ≠ 0)
    (m : Fin M) (d : Fin D) :
    outK x (scoreK x y) m d = outR x (scoreR x y) m d := by
  choose a ha using hx
  choose b hb using hy
  obtain rfl : x = fun n d => ((a n d : ℝ) : EReal) := by funext n d; exact ha n d
  obtain rfl : y = fun m d => ((b m d : ℝ) : EReal) := by funext m d; exact hb m d
  -- the real sums of squares are nonzero
  have hna : ∀ d, (∑ n, a n d * a n d) ≠ 0 := by
    intro d h
    apply hnx d
    rw [sumsq_coe, h, EReal.coe_zero]
  have hnb : ∀ d, (∑ m, b m d * b m d) ≠ 0 := by
    intro d h
    apply hny d
    rw [sumsq_coe, h, EReal.coe_zero]
  -- there is at least one token: an empty sum of squares would be zero
  have hN : N ≠ 0 := by
    rintro rfl
    exact hnx d (by simp)
  -- both scores are the same real matrix
  choose s hsK hsR using fun m n => score_coe a b hna hnb m n
  have hK : scoreK (fun n d => ((a n d : ℝ) : EReal)) (fun m d => ((b m d : ℝ) : EReal)) =
      fun m n => ((s m n : ℝ) : EReal) := by
    funext m n; exact hsK m n
  have hR : scoreR (fun n d => ((a n d : ℝ) : EReal)) (fun m d => ((b m d : ℝ) : EReal)) =
      fun m n => ((s m n : ℝ) : EReal) := by
    funext m n; exact hsR m n
  rw [hK, hR]
  exact out_coe a s hN m d

end Cert.RowMath

end
-- ==== Proof.Blocks.lean ====
/-
  From blocks to the array: after the kernel's run its result array is ONE function `G` of the two argument arrays.

  The grid has one point per batch member. At point `t` the three windows' blocks are member `t` of `x`, of `y` and of
  the result: index `(u, n, d)` of a block is index `(t, n, d)` of its array (a block's coordinate is always index × size
  + the coordinate inside the block, and the index maps are `(t, 0, 0)`, decided over the 64 points). So what point `t`
  writes back — the body's stored value of the two loaded blocks, `RowMath.outK` of member `t` — is, by the law of
  RowMathLaw.lean, `RowMath.outR` of member `t`: block `t` of `G`. Every index of the result lies in the block of the
  point named by its first coordinate, so the array ends holding `G` everywhere.
-/
import proofs.«123215_j14113262535183_2_alg».proof.Proof.Gen.KernelIdeal.Value
import proofs.«123215_j14113262535183_2_alg».proof.Proof.KernelRow
import proofs.«123215_j14113262535183_2_alg».proof.Proof.RowMathLaw
import Idealize.ShloMosaic.Lib.Pipeline.Value
import Idealize.ShloMosaic.Lib.ValueIdx

noncomputable section

namespace Cert.Blocks

open Cert.KernelIdeal Cert.KernelIdeal.Gen Idealize.ShloMosaic Idealize.ShloMosaic.TcCoe Idealize.SL.Sem
  Idealize.ShloMosaic.ValueIdx Cert.RowMath
open Idealize.ShloMosaic.Pipeline (Dat)

/-- The result array as one function of the two argument arrays: at `(b, m, d)`, `(1 - softmax) · x` of batch member `b`. -/
def G (X Y : S64x1024x512.Idx → EReal) : S64x1024x512.Idx → EReal := fun i =>
  outR (fun (n : Fin 1024) (d : Fin 512) => X (ix3 (i 0 : Fin 64) n d))
    (scoreR (fun (n : Fin 1024) (d : Fin 512) => X (ix3 (i 0 : Fin 64) n d)) (fun (k : Fin 1024) (d : Fin 512) => Y (ix3 (i 0 : Fin 64) k d)))
    (i 1 : Fin 1024) (i 2 : Fin 512)

/-- What the precondition gives of the two arrays: real entries, and no feature column of any batch member with a zero
    sum of squares. -/
def Good (X Y : S64x1024x512.Idx → EReal) : Prop :=
  (∀ i, ∃ r : ℝ, X i = (r : EReal)) ∧ (∀ i, ∃ r : ℝ, Y i = (r : EReal))
    ∧ (∀ (b : Fin 64) (d : Fin 512), (∑ n : Fin 1024, X (ix3 b n d) * X (ix3 b n d)) ≠ 0)
    ∧ (∀ (b : Fin 64) (d : Fin 512), (∑ n : Fin 1024, Y (ix3 b n d) * Y (ix3 b n d)) ≠ 0)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point is a batch member. -/
theorem point_lt (t : Fin cfg0.N) : t.val < 64 := by
  have h : t.val < grid0.N := t.isLt
  rw [N_0] at h
  exact h

/-- The batch member of point `t`. -/
abbrev member (t : Fin cfg0.N) : Fin 64 := ⟨t.val, point_lt t⟩

/-- Index `(u, n, d)` of window 0's block at point `t` is index `(t, n, d)` of its array. -/
theorem emb0 (t : Fin cfg0.N) (u : Fin 1) (n : Fin 1024) (d : Fin 512) :
    ((cfg0.win 0).blk t).view.emb (ix3 u n d) = ix3 (member t) n d := by
  obtain ⟨e0, e1, e2, -⟩ := idx_facts t
  funext a; apply Fin.ext
  match a with
  | ⟨0, _⟩ => show win0_0.index t (0 : Fin 3) * 1 + 1 * u.val = t.val; have := u.isLt; omega
  | ⟨1, _⟩ => show win0_0.index t (1 : Fin 3) * 1024 + 1 * n.val = n.val; omega
  | ⟨2, _⟩ => show win0_0.index t (2 : Fin 3) * 512 + 1 * d.val = d.val; omega

/-- The same for window 1. -/
theorem emb1 (t : Fin cfg0.N) (u : Fin 1) (n : Fin 1024) (d : Fin 512) :
    ((cfg0.win 1).blk t).view.emb (ix3 u n d) = ix3 (member t) n d := by
  obtain ⟨-, -, -, e0, e1, e2, -⟩ := idx_facts t
  funext a; apply Fin.ext
  match a with
  | ⟨0, _⟩ => show win0_1.index t (0 : Fin 3) * 1 + 1 * u.val = t.val; have := u.isLt; omega
  | ⟨1, _⟩ => show win0_1.index t (1 : Fin 3) * 1024 + 1 * n.val = n.val; omega
  | ⟨2, _⟩ => show win0_1.index t (2 : Fin 3) * 512 + 1 * d.val = d.val; omega

/-- The same for the output window, at any index `y` of its block. -/
theorem emb2 (t : Fin cfg0.N) (y : S1x1024x512.Idx) :
    ((cfg0.win 2).blk t).view.emb y = ix3 (member t) (y 1 : Fin 1024) (y 2 : Fin 512) := by
  obtain ⟨-, -, -, -, -, -, e0, e1, e2⟩ := idx_facts t
  funext a; apply Fin.ext
  match a with
  | ⟨0, _⟩ => show win0_2.index t (0 : Fin 3) * 1 + 1 * (y 0).val = t.val; have : (y 0).val < 1 := (y 0).isLt; omega
  | ⟨1, _⟩ => show win0_2.index t (1 : Fin 3) * 1024 + 1 * (y 1).val = (y 1).val; omega
  | ⟨2, _⟩ => show win0_2.index t (2 : Fin 3) * 512 + 1 * (y 2).val = (y 2).val; omega

/-- WHAT POINT `t` WRITES BACK is block `t` of `G` of the argument arrays. -/
theorem flushed_eq (c : Dev nD) (t : Fin cfg0.N)
    (hg : Good (m ((c : Thread nD τ).loc main_arg0)) (m ((c : Thread nD τ).loc main_arg1))) :
    (dats m 0 c).flushed 2 t
      = ((cfg0.win 2).blk t).view.read (Elt Ideal) (G (m ((c : Thread nD τ).loc main_arg0)) (m ((c : Thread nD τ).loc main_arg1))) := by
  obtain ⟨hX, hY, hnX, hnY⟩ := hg
  rw [Value.flushed2]
  unfold out0_2
  rw [View.canon_unit_zero hz]
  simp only [View.ld_unit_zero (S := S1x1024x512) hz]
  funext j
  show k0_pay1 (iblk m c 0 t) (iblk m c 1 t) j
    = G (m ((c : Thread nD τ).loc main_arg0)) (m ((c : Thread nD τ).loc main_arg1)) (((cfg0.win 2).blk t).view.emb j)
  refine (KernelRow.pay_at (iblk m c 0 t) (iblk m c 1 t) j).trans ?_
  have hx : (fun (n : Fin 1024) (d : Fin 512) => iblk m c 0 t (ix3 (0 : Fin 1) n d))
      = fun n d => m ((c : Thread nD τ).loc main_arg0) (ix3 (member t) n d) :=
    funext fun n => funext fun d => congrArg (m ((c : Thread nD τ).loc main_arg0)) (emb0 t 0 n d)
  have hy : (fun (k : Fin 1024) (d : Fin 512) => iblk m c 1 t (ix3 (0 : Fin 1) k d))
      = fun k d => m ((c : Thread nD τ).loc main_arg1) (ix3 (member t) k d) :=
    funext fun k => funext fun d => congrArg (m ((c : Thread nD τ).loc main_arg1)) (emb1 t 0 k d)
  rw [hx, hy, emb2 t j]
  exact outK_eq_outR _ _ (fun n d => hX _) (fun k d => hY _) (fun d => hnX (member t) d) (fun d => hnY (member t) d) _ _

/-- An index of the array is in point `t`'s block iff each coordinate is in the block's range on its axis. -/
theorem mem_blk (t : Fin cfg0.N) (i : S64x1024x512.Idx) :
    i ∈ ((cfg0.win 2).blk t).view.set ↔ ∀ a : Fin 3, win0_2.index t a * S1x1024x512.size a ≤ (i a).val
      ∧ (i a).val < win0_2.index t a * S1x1024x512.size a + S1x1024x512.size a := by
  show i ∈ ((View.whole main_v0).slice (win0_2.rect t)).set ↔ _
  rw [View.set_slice_whole, Rect.mem_set_unit]
  exact Iff.rfl

/-- Every index of the result lies in the block of the point its first coordinate names. -/
theorem cover (i : S64x1024x512.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  have hi2 : (i 2).val < 512 := (i 2).isLt
  have hN : (i 0).val < cfg0.N := by
    show (i 0).val < grid0.N
    rw [N_0]; exact hi0
  refine ⟨⟨(i 0).val, hN⟩, flush0_2 _, ?_⟩
  rw [mem_blk]
  obtain ⟨-, -, -, -, -, -, e0', e1, e2⟩ := idx_facts ⟨(i 0).val, hN⟩
  have e0 : win0_2.index ⟨(i 0).val, hN⟩ (0 : Fin 3) = (i 0).val := e0'
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    rw [e0]; omega
  | ⟨1, _⟩ =>
    show win0_2.index ⟨(i 0).val, hN⟩ (1 : Fin 3) * 1024 ≤ (i 1).val ∧ (i 1).val < win0_2.index ⟨(i 0).val, hN⟩ (1 : Fin 3) * 1024 + 1024
    rw [e1]; omega
  | ⟨2, _⟩ =>
    show win0_2.index ⟨(i 0).val, hN⟩ (2 : Fin 3) * 512 ≤ (i 2).val ∧ (i 2).val < win0_2.index ⟨(i 0).val, hN⟩ (2 : Fin 3) * 512 + 512
    rw [e2]; omega

/-- THE ARRAY after the run is `G` of the argument arrays. -/
theorem final (c : Dev nD) (hg : Good (m ((c : Thread nD τ).loc main_arg0)) (m ((c : Thread nD τ).loc main_arg1))) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t hg) cover

/-- The kernel's run re-posted: the result array at `G` of the arguments, the arguments unchanged. -/
theorem run (hg : ∀ c : Dev nD, Good (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hg c)), (h c).2⟩) (Value.run_blocks m ρ)

end Cert.Blocks

end
-- ==== Proof.RefRow.lean ====
/-
  What the reference computes for one batch member, read at an index: with `X` and `Y` the two argument arrays and
  `b` a batch member, entry `(b, m, d)` of the result is `RowMath.outR x (RowMath.scoreR x y) m d` of the member's two
  matrices `x n d = X (b, n, d)` and `y k d = Y (b, k, d)`.

  The reference's operations are read one at a time: a column norm is the square root of the sum of squares over the
  tokens; the normalised arrays are quotients by the broadcast norms; the score is a product contracting the feature axis
  within a batch member; the softmax's maximum is the fold of `max` from `-∞` along the last axis (taken once more
  against `-∞`, which changes nothing); its denominator the sum of the shifted exponentials; and the result a product
  contracting the token axis.
-/
import proofs.«123215_j14113262535183_2_alg».proof.Proof.Gen.ReferenceIdeal.Read
import proofs.«123215_j14113262535183_2_alg».proof.Proof.RowMath
import Idealize.ShloMosaic.Lib.ValueIdx
import Idealize.ShloMosaic.Lib.Pipeline.Value
import Idealize.ShloMosaic.PureOps.Ideal.Laws

noncomputable section

namespace Cert.RefRow

open Idealize.ShloMosaic Idealize.ShloMosaic.ValueIdx Cert.ReferenceIdeal Cert.ReferenceIdeal.Gen Cert.ReferenceIdeal.Read Cert.RowMath

variable (X Y : FVec Ideal S64x1024x512 .f32)

/-- Batch member `b` of an argument array, as a matrix. -/
abbrev slab (Z : FVec Ideal S64x1024x512 .f32) (b : Fin 64) : Fin 1024 → Fin 512 → EReal := fun n d => Z (ix3 b n d)

/-- The broadcast norm of `X`'s columns, at any token of member `b`. -/
theorem normX_apply (b : Fin 64) (n : Fin 1024) (d : Fin 512) :
    val_main_v1 (F := Ideal) X (ix3 b n d) = colNorm (slab X b) d := by
  rw [val_main_v1_apply, val_main_v0_apply, val_main_call0_v2_apply, val_main_call0_v1_apply]
  show Ideal.sqrt (Ideal.ofBits .f32 0x00000000#32 + _) = _
  rw [Ideal.ofBits_zero_f32, zero_add]
  unfold colNorm
  refine congrArg Ideal.sqrt (Finset.sum_congr rfl fun k _ => ?_)
  have e : idx_main_call0_v1 (idx_main_call0_v2 (idx_main_v1 (ix3 b n d))) k = ix3 b k d :=
    funext fun a => Fin.ext (by match a with | ⟨0, _⟩ => rfl | ⟨1, _⟩ => rfl | ⟨2, _⟩ => rfl)
  rw [e]
  rfl

/-- The broadcast norm of `Y`'s columns, at any token of member `b`. -/
theorem normY_apply (b : Fin 64) (k : Fin 1024) (d : Fin 512) :
    val_main_v4 (F := Ideal) Y (ix3 b k d) = colNorm (slab Y b) d := by
  rw [val_main_v4_apply, val_main_v3_apply, val_main_call1_v2_apply, val_main_call1_v1_apply]
  show Ideal.sqrt (Ideal.ofBits .f32 0x00000000#32 + _) = _
  rw [Ideal.ofBits_zero_f32, zero_add]
  unfold colNorm
  refine congrArg Ideal.sqrt (Finset.sum_congr rfl fun j _ => ?_)
  have e : idx_main_call1_v1 (idx_main_call1_v2 (idx_main_v4 (ix3 b k d))) j = ix3 b j d :=
    funext fun a => Fin.ext (by match a with | ⟨0, _⟩ => rfl | ⟨1, _⟩ => rfl | ⟨2, _⟩ => rfl)
  rw [e]
  rfl

/-- The score of row `m` of `y` against row `n` of `x`, within member `b`. -/
theorem score_apply (b : Fin 64) (m n : Fin 1024) :
    val_main_v6 (F := Ideal) X Y (ix3 b m n) = scoreR (slab X b) (slab Y b) m n := by
  rw [val_main_v6_apply]
  unfold scoreR
  refine Finset.sum_congr rfl fun k _ => ?_
  have el : lidx_main_v6 (ix3 b m n) k = ix3 b m k :=
    funext fun a => Fin.ext (by match a with | ⟨0, _⟩ => rfl | ⟨1, _⟩ => rfl | ⟨2, _⟩ => rfl)
  have er : ridx_main_v6 (ix3 b m n) k = ix3 b n k :=
    funext fun a => Fin.ext (by match a with | ⟨0, _⟩ => rfl | ⟨1, _⟩ => rfl | ⟨2, _⟩ => rfl)
  rw [el, er, val_main_v5_apply, val_main_v2_apply, normX_apply, normY_apply]
  rfl

/-- The maximum along the last axis, at `(b, m)`: the fold of `max` from `-∞` over the row's scores. -/
theorem max_apply (b : Fin 64) (m : Fin 1024) :
    val_main_v7 (F := Ideal) X Y (ix2 b m) = rowMax (scoreR (slab X b) (slab Y b)) m := by
  unfold val_main_v7
  refine (Host.reduce_eq_fold_single FloatOps.maximumf _ _ reducesTo_S64x1024x1024_S64x1024_d2
    (by decide : S64x1024x1024.Reduces [2] S64x1024) h_S_ (ix2 b m)).trans ?_
  show Finset.univ.fold max (Ideal.ofBits .f32 0xFF800000#32) _ = _
  rw [ofBits_negInf]
  unfold rowMax
  refine congrArg (Finset.univ.fold max ⊥) (funext fun (n : Fin 1024) => ?_)
  have e : (by decide : S64x1024x1024.Reduces [2] S64x1024).lift (ix2 b m) n = ix3 b m n :=
    funext fun a => Fin.ext (by match a with | ⟨0, _⟩ => rfl | ⟨1, _⟩ => rfl | ⟨2, _⟩ => rfl)
  show val_main_v6 (F := Ideal) X Y ((by decide : S64x1024x1024.Reduces [2] S64x1024).lift (ix2 b m) n) = _
  rw [e, score_apply]

/-- The broadcast row maximum, at any `(b, m, n)`. -/
theorem bmax_apply (b : Fin 64) (m n : Fin 1024) :
    val_main_v11 (F := Ideal) X Y (ix3 b m n) = rowMax (scoreR (slab X b) (slab Y b)) m := by
  rw [val_main_v11_apply, val_main_v10_apply, val_main_v9_apply, val_main_v8_apply, val_main_cst_0_apply]
  have e : idx_main_v10 (idx_main_v11 (ix3 b m n)) = ix2 b m :=
    funext fun a => Fin.ext (by match a with | ⟨0, _⟩ => rfl | ⟨1, _⟩ => rfl)
  rw [e, max_apply]
  show max (Ideal.ofBits .f32 0xFF800000#32) _ = _
  rw [ofBits_negInf]
  exact max_eq_right bot_le

/-- The shifted exponential at `(b, m, n)`. -/
theorem expo_apply (b : Fin 64) (m n : Fin 1024) :
    val_main_v13 (F := Ideal) X Y (ix3 b m n) = expo (scoreR (slab X b) (slab Y b)) m n := by
  rw [val_main_v13_apply, val_main_v12_apply, score_apply, bmax_apply]
  rfl

/-- The broadcast softmax denominator at any `(b, m, n)`. -/
theorem expSum_apply (b : Fin 64) (m n : Fin 1024) :
    val_main_v16 (F := Ideal) X Y (ix3 b m n) = expSum (scoreR (slab X b) (slab Y b)) m := by
  rw [val_main_v16_apply, val_main_v15_apply, val_main_v14_apply]
  show Ideal.ofBits .f32 0x00000000#32 + _ = _
  rw [Ideal.ofBits_zero_f32, zero_add]
  unfold expSum
  refine Finset.sum_congr rfl fun k _ => ?_
  have e : idx_main_v14 (idx_main_v15 (idx_main_v16 (ix3 b m n))) k = ix3 b m k :=
    funext fun a => Fin.ext (by match a with | ⟨0, _⟩ => rfl | ⟨1, _⟩ => rfl | ⟨2, _⟩ => rfl)
  rw [e, expo_apply]

/-- Entry `(b, m, d)` of the reference's result. -/
theorem ref_apply (b : Fin 64) (m : Fin 1024) (d : Fin 512) :
    val_main_v20 (F := Ideal) X Y (ix3 b m d) = outR (slab X b) (scoreR (slab X b) (slab Y b)) m d := by
  rw [val_main_v20_apply]
  unfold outR
  refine Finset.sum_congr rfl fun k _ => ?_
  have el : lidx_main_v20 (ix3 b m d) k = ix3 b m k :=
    funext fun a => Fin.ext (by match a with | ⟨0, _⟩ => rfl | ⟨1, _⟩ => rfl | ⟨2, _⟩ => rfl)
  have er : ridx_main_v20 (ix3 b m d) k = ix3 b k d :=
    funext fun a => Fin.ext (by match a with | ⟨0, _⟩ => rfl | ⟨1, _⟩ => rfl | ⟨2, _⟩ => rfl)
  rw [el, er, val_main_v19_apply, val_main_v18_apply, val_main_cst_2_apply, val_main_v17_apply, expo_apply, expSum_apply]
  show (Ideal.ofBits .f32 0x3F800000#32 - _) * _ = _
  rw [ofBits_one]
  rfl

end Cert.RefRow

end
-- ==== Proof.lean ====
/-
  The kernel and its reference compute, for every batch member, `(1 - softmax (ŷ x̂ᵀ)) · x`, where `x̂` and `ŷ` are `x` and
  `y` with every feature column divided by its Euclidean norm over the tokens. The reference divides each matrix by its
  own norms and applies the weights `1 - e / Σ e` entry by entry; the kernel folds both norms into one factor
  `1 / (‖x_d‖ · ‖y_d‖)` on `y` and writes the result as the column sums of `x` minus `(Σ e · x) · (1 / Σ e)`.

  Over the extended reals the two agree wherever every entry is a real number and no feature column of any batch member
  is identically zero — which the precondition states (finite entries; every column's sum of squares nonzero, the
  reference's own divisor). Then all norms are positive reals, the two scores agree term by term, a row's maximum is a
  real, the softmax denominator is a positive real, and the two results differ by distributing a product over a finite
  sum (Proof/RowMath.lean, Proof/RowMathLaw.lean).

  The rest is reading. Proof/KernelRow.lean reads the value the kernel's body stores, index by index, as the first
  spelling; Proof/RefRow.lean reads the reference's operations, index by index, as the second; Proof/Blocks.lean shows
  the grid's 64 blocks are the 64 batch members and tile the result; Proof/PreFacts.lean reads the precondition. The
  kernel's idealization rewrote nothing, so it preserves the kernel trivially; the three programs' runs and unchanged
  arguments are the generated frames and the reference's generated run.
-/
import proofs.«123215_j14113262535183_2_alg».proof.Defs
import proofs.«123215_j14113262535183_2_alg».proof.Proof.Gen.Kernel
import proofs.«123215_j14113262535183_2_alg».proof.Proof.Gen.Kernel.Frame
import proofs.«123215_j14113262535183_2_alg».proof.Proof.Gen.KernelIdeal
import proofs.«123215_j14113262535183_2_alg».proof.Proof.Gen.KernelIdeal.Frame
import proofs.«123215_j14113262535183_2_alg».proof.Proof.Gen.KernelIdeal.Value
import proofs.«123215_j14113262535183_2_alg».proof.Proof.Gen.ReferenceIdeal
import proofs.«123215_j14113262535183_2_alg».proof.Proof.Gen.ReferenceIdeal.Run
import proofs.«123215_j14113262535183_2_alg».proof.Proof.Gen.ReferenceIdeal.Read
import proofs.«123215_j14113262535183_2_alg».proof.Proof.Gen.Pre_finite_inputs
import proofs.«123215_j14113262535183_2_alg».proof.Proof.PreFacts
import proofs.«123215_j14113262535183_2_alg».proof.Proof.Blocks
import proofs.«123215_j14113262535183_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result, as a function of the two argument arrays, is the kernel's `G`: at `(b, m, d)` both are
    `(1 - softmax) · x` of batch member `b` in its entry-by-entry spelling. -/
theorem ref_eq_G (X Y : FVec Ideal Cert.ReferenceIdeal.S64x1024x512 .f32) :
    Cert.ReferenceIdeal.Read.val_main_v20 (F := Ideal) X Y = Cert.Blocks.G X Y :=
  funext fun i => (congrArg (Cert.ReferenceIdeal.Read.val_main_v20 (F := Ideal) X Y) (eq_ix3 i)).trans
    (Cert.RefRow.ref_apply X Y (i 0) (i 1) (i 2))

/-- From memories agreeing on the arguments, the idealized kernel and the idealized reference both run and end with the
    same result array, `G` of the arguments. -/
theorem algebraic : Cert.algebraic_KernelIdeal_ReferenceIdeal := by
  intro m ρ m' ρ' hpre hagree
  have hg : ∀ c : Dev Cert.KernelIdeal.nD,
      Cert.Blocks.Good (m ((c : Thread Cert.KernelIdeal.nD Cert.KernelIdeal.τ).loc Cert.KernelIdeal.main_arg0))
        (m ((c : Thread Cert.KernelIdeal.nD Cert.KernelIdeal.τ).loc Cert.KernelIdeal.main_arg1)) :=
    fun c => Cert.PreFacts.of_pre _ _ (hpre c)
  refine ⟨_, Cert.Blocks.run m ρ hg, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
